-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x1024 : Shape := ⟨3, ![16, 4096, 1024]⟩
abbrev S16x4096 : Shape := ⟨2, ![16, 4096]⟩
abbrev S_ : Shape := ⟨0, ![]⟩

class Facts : Prop where
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel

variable [Facts]

def fn {F : FTy → Type} [FloatOps F] (main_arg0 : FVec F S16x4096x1024 .f32) (main_arg1 : IVec S16x4096 1) : IVec S_ 1 :=
  let main_v0 : FVec F S16x4096x1024 .f32 := Host.absf main_arg0
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_c : IVec S_ 1 := constantI S_ 1 1#1
  let main_v3 : IVec S_ 1 := (fun x v => Host.reduce IntOp.andi x v reducesTo_S16x4096x1024_S_d0_1_2 h_S_) main_v2 main_c
  main_v3
-- ==== Kernel.lean ====
abbrev S16x4096x1024 : Shape := ⟨3, ![16, 4096, 1024]⟩
abbrev S16x4096 : Shape := ⟨2, ![16, 4096]⟩
abbrev S_ : Shape := ⟨0, ![]⟩
abbrev S16 : Shape := ⟨1, ![16]⟩
abbrev S16x1 : Shape := ⟨2, ![16, 1]⟩
abbrev S16x128x1024 : Shape := ⟨3, ![16, 128, 1024]⟩
abbrev S16x128 : Shape := ⟨2, ![16, 128]⟩
abbrev S16x128x1 : Shape := ⟨3, ![16, 128, 1]⟩

abbrev nBuf : Space → Nat
  | .hbm => 7
  | .vmem => 7
  | .smem => 0
  | _ => 0

abbrev bufTy : (tb : Table) → Fin (tcTables nBuf tb) → BufTy
  | .hbm, ⟨0, _⟩ => ⟨S16x4096x1024, .f32⟩
  | .hbm, ⟨1, _⟩ => ⟨S16x4096, .i1⟩
  | .hbm, ⟨2, _⟩ => ⟨S16x4096, .i32⟩
  | .hbm, ⟨3, _⟩ => ⟨S_, .i32⟩
  | .hbm, ⟨4, _⟩ => ⟨S16, .i32⟩
  | .hbm, ⟨5, _⟩ => ⟨S16x1, .i32⟩
  | .hbm, ⟨6, _⟩ => ⟨S16x4096x1024, .f32⟩
  | .local _ .vmem, ⟨0, _⟩ => ⟨S16x1, .i32⟩
  | .local _ .vmem, ⟨1, _⟩ => ⟨S16x128x1024, .f32⟩
  | .local _ .vmem, ⟨2, _⟩ => ⟨S16x128x1024, .f32⟩
  | .local _ .vmem, ⟨3, _⟩ => ⟨S16x128, .i32⟩
  | .local _ .vmem, ⟨4, _⟩ => ⟨S16x128, .i32⟩
  | .local _ .vmem, ⟨5, _⟩ => ⟨S16x128x1024, .f32⟩
  | .local _ .vmem, ⟨6, _⟩ => ⟨S16x128x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S16x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  natLt_1_32 : 1 < 32
  reducesTo_S16x4096_S16_d1 : S16x4096.ReducesTo [1] S16
  h_S_ : 0 < S_.numel
  bcast_S16_S16x1_0 : S16.BroadcastsInDim S16x1 (![0] : Fin 1 → Fin S16x1.rank)
  iota_S16x128_d1_w32 : S16x128.Iotas .tc 32 [1]
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S16x1_S16x128 : S16x1.Broadcasts S16x128
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S16x128x1024_S16x128x1024_0_0_0 : ∀ a, (![0, 0, 0] : Fin 3 → Nat) a + S16x128x1024.size a ≤ S16x128x1024.size a
  h_S16x128x1024 : 0 < S16x128x1024.numel
  shapeCasts_S16x128_S16x128x1 : S16x128.ShapeCasts S16x128x1
  broadcasts_S16x128x1_S16x128x1024 : S16x128x1.Broadcasts S16x128x1024
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x1.size a ≤ S16x1.size a
  hwx0_0 : ∀ i : grid0.Coords, EltTy.bits .i32 = 32 ∨ (Rect.block (s := S16x1) S16x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128x1024.size a ≤ S16x4096x1024.size a
  hwx0_1 : ∀ i : grid0.Coords, EltTy.bits .f32 = 32 ∨ (Rect.block (s := S16x4096x1024) S16x128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x128.size a ≤ S16x4096.size a
  hwx0_2 : ∀ i : grid0.Coords, EltTy.bits .i32 = 32 ∨ (Rect.block (s := S16x4096) S16x128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x128x1024.size a ≤ S16x4096x1024.size a
  hwx0_3 : ∀ i : grid0.Coords, EltTy.bits .f32 = 32 ∨ (Rect.block (s := S16x4096x1024) S16x128x1024.size (cc0_transform_3 i) (hinb0_3 i)).WholeWords (EltTy.packing .f32)

variable [Facts₀]

abbrev win0_0 : Pipeline.Window sig grid0 :=
  Pipeline.Window.ofSpec (Memref.whole main_v2) S16x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S16x128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S16x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S16x128x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x4096x1024 : Shape := ⟨3, ![16, 4096, 1024]⟩
abbrev S16x4096 : Shape := ⟨2, ![16, 4096]⟩
abbrev S_ : Shape := ⟨0, ![]⟩
abbrev S16 : Shape := ⟨1, ![16]⟩
abbrev S4096 : Shape := ⟨1, ![4096]⟩
abbrev S1x4096 : Shape := ⟨2, ![1, 4096]⟩
abbrev S16x1 : Shape := ⟨2, ![16, 1]⟩
abbrev S16x4096x1 : Shape := ⟨3, ![16, 4096, 1]⟩

abbrev nBuf : Space → Nat
  | .hbm => 16
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096, .i1⟩
  | .hbm, ⟨2, _⟩ => ⟨S16x4096, .i32⟩
  | .hbm, ⟨3, _⟩ => ⟨S_, .i32⟩
  | .hbm, ⟨4, _⟩ => ⟨S16, .i32⟩
  | .hbm, ⟨5, _⟩ => ⟨S4096, .i32⟩
  | .hbm, ⟨6, _⟩ => ⟨S1x4096, .i32⟩
  | .hbm, ⟨7, _⟩ => ⟨S16x1, .i32⟩
  | .hbm, ⟨8, _⟩ => ⟨S16x4096, .i32⟩
  | .hbm, ⟨9, _⟩ => ⟨S16x4096, .i32⟩
  | .hbm, ⟨10, _⟩ => ⟨S16x4096, .i1⟩
  | .hbm, ⟨11, _⟩ => ⟨S16x4096, .i1⟩
  | .hbm, ⟨12, _⟩ => ⟨S16x4096, .f32⟩
  | .hbm, ⟨13, _⟩ => ⟨S16x4096x1, .f32⟩
  | .hbm, ⟨14, _⟩ => ⟨S16x4096x1024, .f32⟩
  | .hbm, ⟨15, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]

class Facts₀ : Prop where
  natLt_1_32 : 1 < 32
  reducesTo_S16x4096_S16_d1 : S16x4096.ReducesTo [1] S16
  h_S_ : 0 < S_.numel
  bcast_S4096_S1x4096_1 : S4096.BroadcastsInDim S1x4096 (![1] : Fin 1 → Fin S1x4096.rank)
  bcast_S16_S16x1_0 : S16.BroadcastsInDim S16x1 (![0] : Fin 1 → Fin S16x1.rank)
  bcast_S1x4096_S16x4096_0_1 : S1x4096.BroadcastsInDim S16x4096 (![0, 1] : Fin 2 → Fin S16x4096.rank)
  bcast_S16x1_S16x4096_0_1 : S16x1.BroadcastsInDim S16x4096 (![0, 1] : Fin 2 → Fin S16x4096.rank)
  bcast_S16x4096_S16x4096x1_0_1 : S16x4096.BroadcastsInDim S16x4096x1 (![0, 1] : Fin 2 → Fin S16x4096x1.rank)
  bcast_S16x4096x1_S16x4096x1024_0_1_2 : S16x4096x1.BroadcastsInDim S16x4096x1024 (![0, 1, 2] : Fin 3 → Fin S16x4096x1024.rank)

variable [Facts₀]

class Facts : Prop extends Facts₀ where

variable [Facts]
-- ==== Proof.PrefixMask.lean ====
/-
  The function both programs compute, stated once over the whole arrays, and the few facts about machine words that
  reconcile the two spellings of it.

  For an array `x : [16, 4096, 1024]` of extended reals and a mask `mk : [16, 4096]` of bits, row `b` of the mask has a
  COUNT `len b`, the sum over the row of the bits read as 32-bit words. Position `s` of row `b` is KEPT when `s`, as a
  32-bit word, is below `len b` in the signed order and the mask's own bit at `(b, s)` is set. The result at `(b, s, d)` is
  `x (b, s, d)` times the kept bit read as the real number 0 or 1.

  Both programs form exactly this product, so nothing about the extended reals beyond the product itself is used: no
  finiteness of `x` is needed. What differs between them is how the kept bit reaches the product:
  * one program compares the mask's bit, widened to 32 bits, with zero, where the other uses the bit itself
    (`ne_zero_of_bit`);
  * one widens the kept bit to 32 bits and reads that word as a SIGNED integer, where the other reads the bit as an
    UNSIGNED one — on the words 0 and 1 the two readings agree (`signed_of_bit`);
  * one builds the position `s` as `p + t * 128` from a block number `t` and a position `p` inside the block, in 32-bit
    arithmetic, where the other takes the word of `s` directly (`position_word`).
-/
import Idealize.ShloMosaic.PureOps.Ideal
import Idealize.ShloMosaic.Lib.ValueIdx

noncomputable section

namespace Cert.PrefixMask

open Idealize.ShloMosaic Idealize.ShloMosaic.ValueIdx

/-- The array's shape, the mask's, and the shape of the row counts. -/
abbrev SX : Shape := ⟨3, ![16, 4096, 1024]⟩
abbrev SM : Shape := ⟨2, ![16, 4096]⟩
abbrev SR : Shape := ⟨1, ![16]⟩

/-- The count of a row of the mask: the row's bits, each widened to a 32-bit word, summed along the row from zero. It is
    carried as one function and never opened: both programs compute it by the same reduction. -/
def rowCount (mk : SM.Idx → BitVec 1) (h32 : 1 < 32) (hred : SM.ReducesTo [1] SR) (hpos : 0 < (⟨0, ![]⟩ : Shape).numel) :
    SR.Idx → BitVec 32 :=
  Host.reduce IntOp.addi (extui 32 mk h32) (constantI ⟨0, ![]⟩ 32 0#32) hred hpos

/-- The kept bit: the position's word is below the row's count in the signed order, and the mask's bit is set. -/
def keepBit (len : BitVec 32) (pos : BitVec 32) (mbit : BitVec 1) : BitVec 1 :=
  IntOp.andi (IntOp.cmpi .slt pos len) mbit

/-- The result, index by index: the element times its kept bit as 0 or 1. -/
def masked (x : SX.Idx → EReal) (mk : SM.Idx → BitVec 1) (len : SR.Idx → BitVec 32) : SX.Idx → EReal := fun g =>
  x g * FloatOps.uitofp (F := Ideal) .f32
    (keepBit (len (ix1 ⟨(g 0).val, (g 0).isLt⟩)) (BitVec.ofNat 32 (g 1).val)
      (mk (ix2 ⟨(g 0).val, (g 0).isLt⟩ ⟨(g 1).val, (g 1).isLt⟩)))

/-- A bit widened to 32 bits differs from zero exactly when the bit is set. -/
theorem ne_zero_of_bit (b : BitVec 1) : IntOp.cmpi .ne (b.setWidth 32) 0#32 = b := by
  rcases BitVec.eq_zero_or_eq_one b with h | h <;> subst h <;> decide

/-- A bit widened to 32 bits and read as a signed integer is the bit read as an unsigned one: 0 or 1 either way. -/
theorem signed_of_bit (b : BitVec 1) :
    FloatOps.sitofp (F := Ideal) .f32 (b.setWidth 32) = FloatOps.uitofp (F := Ideal) .f32 b := by
  show (((b.setWidth 32).toInt : ℝ) : EReal) = ((b.toNat : ℝ) : EReal)
  have h : (b.setWidth 32).toInt = (b.toNat : ℤ) := by
    rcases BitVec.eq_zero_or_eq_one b with h | h <;> subst h <;> decide
  rw [h, Int.cast_natCast]

/-- Position `p` of block `t`, blocks of 128 positions: the word of `p` plus the word of `t` times 128 is the word of
    `t * 128 + p` (32-bit addition and multiplication are those of the naturals modulo 2^32). -/
theorem position_word (t p : Nat) :
    IntOp.addi (BitVec.ofNat 32 p) (Scalar.muli (BitVec.ofNat 32 t) 128#32) = BitVec.ofNat 32 (t * 128 + p) := by
  show BitVec.ofNat 32 p + BitVec.ofNat 32 t * BitVec.ofNat 32 128 = BitVec.ofNat 32 (t * 128 + p)
  rw [← BitVec.ofNat_mul, ← BitVec.ofNat_add, Nat.add_comm]

end Cert.PrefixMask

end
-- ==== Proof.Payload.lean ====
/-
  What the kernel's body stores, read at one element.

  The body at block number `t` (the grid coordinate) loads the column of row counts `[16, 1]`, its block of the mask words
  `[16, 128]` and its block of the array `[16, 128, 1024]`, and stores the array block times a factor that depends on the
  row `b` and the position `p` inside the block only: the kept bit of position `t * 128 + p` of row `b`, widened to a 32-bit
  word and read as a signed integer. The factor reaches the product through two re-layouts — the counts' column spread
  along the 128 positions, and the `[16, 128]` factor given a unit axis and spread along the 1024 lanes — each of which reads
  one element of its operand (`column_spread`, `lane_spread`).
-/
import proofs.«130980_j14491219657085_1_alg».proof.Proof.Gen.KernelIdeal.Skeleton
import proofs.«130980_j14491219657085_1_alg».proof.Proof.PrefixMask
import Idealize.ShloMosaic.Lib.Pipeline.Value
import Idealize.ShloMosaic.Lib.ValueIdx

noncomputable section

namespace Cert.KernelIdeal.Body

open Idealize.ShloMosaic Idealize.ShloMosaic.ValueIdx Cert.KernelIdeal Cert.KernelIdeal.Gen Cert.PrefixMask

/-- A `[16, 128]` vector given a trailing unit axis and spread along 1024 lanes reads, at `(b, p, d)`, its element `(b, p)`:
    the spread takes coordinate 0 on the unit axis, and `(b, p, 0)` and `(b, p)` are the same row-major position. -/
theorem lane_spread {α : Type} (w : S16x128.Idx → α) (h1 : S16x128.ShapeCasts S16x128x1)
    (h2 : S16x128x1.Broadcasts S16x128x1024) (b : Fin 16) (p : Fin 128) (d : Fin 1024) :
    broadcastTo S16x128x1024 (shapeCast S16x128x1 w h1) h2 (ix3 b p d) = w (ix2 b p) := by
  refine (broadcastTo_apply _ h2 (ix3 b p d) (ix3 b p (0 : Fin 1)) fun a => ?_).trans ?_
  · match a with
    | ⟨0, _⟩ => show b.val = if (16 : Nat) = 1 then 0 else b.val; rw [if_neg (by decide)]
    | ⟨1, _⟩ => show p.val = if (128 : Nat) = 1 then 0 else p.val; rw [if_neg (by decide)]
    | ⟨2, _⟩ => show (0 : Nat) = if (1 : Nat) = 1 then 0 else d.val; rw [if_pos rfl]
  · refine shapeCast_apply w h1 (ix3 b p (0 : Fin 1)) (ix2 b p) ?_
    rw [Shape.rowMajor_val_two, Shape.rowMajor_val_three]
    show b.val * 128 + p.val = (b.val * 128 + p.val) * 1 + 0
    omega

/-- A `[16, 1]` column spread along 128 positions reads, at `(b, p)`, its element `(b, 0)`. -/
theorem column_spread {α : Type} (w : S16x1.Idx → α) (h1 : S16x1.ShapeCasts S16x1) (h2 : S16x1.Broadcasts S16x128)
    (b : Fin 16) (p : Fin 128) :
    broadcastTo S16x128 (shapeCast S16x1 w h1) h2 (ix2 b p) = w (ix2 b (0 : Fin 1)) := by
  rw [shapeCast_self]
  exact broadcastTo_apply w h2 (ix2 b p) (ix2 b (0 : Fin 1)) fun a => by
    match a with
    | ⟨0, _⟩ => show b.val = if (16 : Nat) = 1 then 0 else b.val; rw [if_neg (by decide)]
    | ⟨1, _⟩ => show (0 : Nat) = if (1 : Nat) = 1 then 0 else p.val; rw [if_pos rfl]

/-- THE STORED VALUE AT ONE ELEMENT: at block number `i 0`, element `(b, p, d)` of what the body stores is the array block's
    element times the kept bit of position `(i 0) * 128 + p` against the count loaded for row `b`, the mask's bit being
    "the loaded mask word differs from zero". The position's word is the lane number `p` plus the block number times 128
    (`position_word`); the signed reading of the widened bit is the unsigned reading of the bit (`signed_of_bit`). -/
theorem stored_apply (i : grid0.Coords) (cnt : Vec Ideal S16x1 .i32) (mw : Vec Ideal S16x128 .i32)
    (xb : Vec Ideal S16x128x1024 .f32) (b : Fin 16) (p : Fin 128) (d : Fin 1024) :
    k0_pay1 (F := Ideal) i cnt mw xb (ix3 b p d)
      = xb (ix3 b p d) * FloatOps.uitofp (F := Ideal) .f32
          (keepBit (cnt (ix2 b (0 : Fin 1))) (BitVec.ofNat 32 ((i 0).val * 128 + p.val))
            (IntOp.cmpi .ne (mw (ix2 b p)) 0#32)) := by
  unfold k0_pay1
  refine (mulf_apply _ _ _).trans ?_
  rw [lane_spread]
  show xb (ix3 b p d) * FloatOps.sitofp (F := Ideal) .f32
      ((IntOp.andi
          (IntOp.cmpi .slt
            (IntOp.addi (iota .tc S16x128 32 [1] _ (ix2 b p)) (Scalar.muli (BitVec.ofNat 32 (i 0).val) 128#32))
            (broadcastTo S16x128 (shapeCast S16x1 cnt _) _ (ix2 b p)))
          (IntOp.cmpi .ne (shapeCast S16x128 mw _ (ix2 b p)) 0#32)).setWidth 32) = _
  rw [signed_of_bit, column_spread, shapeCast_self, iota_single_apply, position_word]
  rfl

end Cert.KernelIdeal.Body

end
-- ==== Proof.KernelValue.lean ====
/-
  The kernel's result array, as one function of the two arguments: the masked product.

  The grid has 32 points; point `t` works on positions `t * 128 … t * 128 + 127` of every row. It is handed the whole
  column of row counts, block `t` (along the positions) of the mask's words and of the array, and writes block `t` of the
  result. When the region is entered the words are the mask's bits widened to 32 bits (`entry_words`) and the column holds
  the mask's row counts (`entry_counts`); the array is the argument itself. So element `(b, p, d)` of what point `t`
  writes back is `x (b, t * 128 + p, d)` times the kept bit of position `t * 128 + p` of row `b` (`point_value` over the
  body's stored value): block `t` of `masked` (`flushed_eq`). The 32 blocks tile the positions, so every index of the
  result lies in the block of point `s / 128` (`cover`), and the array ends holding `masked` of the arguments (`final`).
-/
import proofs.«130980_j14491219657085_1_alg».proof.Proof.FrameKernelIdeal
import proofs.«130980_j14491219657085_1_alg».proof.Proof.Payload
import Idealize.ShloMosaic.Lib.Pipeline.Value
import Idealize.ShloMosaic.Lib.StableHlo.Run

noncomputable section

namespace Cert.KernelIdeal.ArrayValue

open Cert.KernelIdeal Cert.KernelIdeal.Gen Cert.KernelIdeal.GenP Cert.KernelIdeal.Body Cert.PrefixMask
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The mask's row counts, of the mask as launched on core `c`. -/
abbrev counts (c : Dev nD) : SR.Idx → BitVec 32 :=
  rowCount (m ((c : Thread nD τ).loc main_arg1)) Facts₀.natLt_1_32 Facts₀.reducesTo_S16x4096_S16_d1 Facts₀.h_S_

/-- The result array: the masked product of the arguments as launched. -/
abbrev result (c : Dev nD) : SX.Idx → EReal :=
  masked (m ((c : Thread nD τ).loc main_arg0)) (m ((c : Thread nD τ).loc main_arg1)) (counts m c)

/-! ## The arrays the region finds -/

/-- The mask's words at region entry: the mask's bits, each widened to 32 bits. -/
theorem entry_words (c : Dev nD) :
    (V m c main_v0 : S16x4096.Idx → BitVec 32) = extui 32 (m ((c : Thread nD τ).loc main_arg1)) Facts₀.natLt_1_32 := by
  dsimp only [V, hostOps0]; after_results

/-- The column of counts at region entry: the mask's row counts, given a unit axis. -/
theorem entry_counts (c : Dev nD) :
    (V m c main_v2 : S16x1.Idx → BitVec 32) = broadcastInDim S16x1 ![0] Facts₀.bcast_S16_S16x1_0 (counts m c) := by
  dsimp only [V, hostOps0]; after_results; rfl

/-- The printed index maps over the grid, decided: the counts' block never moves; the array's, the words' and the
    result's blocks are at block number `t` along the positions and at zero elsewhere; the grid coordinate of point `t` is `t`. -/
theorem idx_facts : ∀ t : Fin cfg0.N,
    win0_0.index t (0 : Fin 2) = 0 ∧ win0_0.index t (1 : Fin 2) = 0
    ∧ win0_1.index t (0 : Fin 3) = 0 ∧ win0_1.index t (1 : Fin 3) = t.val ∧ win0_1.index t (2 : Fin 3) = 0
    ∧ win0_2.index t (0 : Fin 2) = 0 ∧ win0_2.index t (1 : Fin 2) = t.val
    ∧ win0_3.index t (0 : Fin 3) = 0 ∧ win0_3.index t (1 : Fin 3) = t.val ∧ win0_3.index t (2 : Fin 3) = 0
    ∧ (grid0.coords t 0).val = t.val ∧ t.val < 32 :=
  (by decide +kernel : ∀ t : Fin grid0.N, _)

/-! ## The input blocks at a point -/

/-- Element `(b, p, d)` of the array's block at point `t` is the argument's element `(b, t * 128 + p, d)`. -/
theorem array_block (c : Dev nD) (t : Fin cfg0.N) (b : Fin 16) (p : Fin 128) (d : Fin 1024) (q : Fin 4096)
    (hq : q.val = t.val * 128 + p.val) :
    iblk m c 1 t (ix3 b p d) = m ((c : Thread nD τ).loc main_arg0) (ix3 b q d) := by
  obtain ⟨-, -, e0, e1, e2, -⟩ := idx_facts t
  unfold iblk
  rw [View.read_apply]
  show V m c main_arg0 (((cfg0.win 1).blk t).view.emb (ix3 b p d)) = _
  rw [V_main_arg0]
  refine congrArg (m ((c : Thread nD τ).loc main_arg0)) (funext fun a => Fin.ext ?_)
  match a with
  | ⟨0, _⟩ => show win0_1.index t (0 : Fin 3) * 16 + 1 * b.val = b.val; omega
  | ⟨1, _⟩ => show win0_1.index t (1 : Fin 3) * 128 + 1 * p.val = q.val; omega
  | ⟨2, _⟩ => show win0_1.index t (2 : Fin 3) * 1024 + 1 * d.val = d.val; omega

/-- Element `(b, 0)` of the counts' block, at any point, is row `b`'s count. -/
theorem counts_block (c : Dev nD) (t : Fin cfg0.N) (b : Fin 16) :
    iblk m c 0 t (ix2 b (0 : Fin 1)) = counts m c (ix1 b) := by
  obtain ⟨e0, e1, -⟩ := idx_facts t
  unfold iblk
  rw [View.read_apply]
  show V m c main_v2 (((cfg0.win 0).blk t).view.emb (ix2 b (0 : Fin 1))) = _
  rw [entry_counts]
  refine broadcastInDim_apply _ _ _ _ (ix1 b) fun a => ?_
  match a with
  | ⟨0, _⟩ =>
    show b.val = if (16 : Nat) = 1 then 0 else win0_0.index t (0 : Fin 2) * 16 + 1 * b.val
    rw [if_neg (by decide)]; omega

/-- Element `(b, p)` of the words' block at point `t` is the mask's bit at `(b, t * 128 + p)`, widened. -/
theorem words_block (c : Dev nD) (t : Fin cfg0.N) (b : Fin 16) (p : Fin 128) (q : Fin 4096)
    (hq : q.val = t.val * 128 + p.val) :
    iblk m c 2 t (ix2 b p) = (m ((c : Thread nD τ).loc main_arg1) (ix2 b q)).setWidth 32 := by
  obtain ⟨-, -, -, -, -, e0, e1, -⟩ := idx_facts t
  unfold iblk
  rw [View.read_apply]
  show V m c main_v0 (((cfg0.win 2).blk t).view.emb (ix2 b p)) = _
  rw [entry_words]
  show (m ((c : Thread nD τ).loc main_arg1) (((cfg0.win 2).blk t).view.emb (ix2 b p))).setWidth 32 = _
  refine congrArg (fun z : BitVec 1 => z.setWidth 32) (congrArg (m ((c : Thread nD τ).loc main_arg1)) (funext fun a => Fin.ext ?_))
  match a with
  | ⟨0, _⟩ => show win0_2.index t (0 : Fin 2) * 16 + 1 * b.val = b.val; omega
  | ⟨1, _⟩ => show win0_2.index t (1 : Fin 2) * 128 + 1 * p.val = q.val; omega

/-! ## What a point writes back -/

/-- THE STORED VALUE IS THE MASKED PRODUCT, one element: when the loaded blocks are the blocks of an array `X`, of a
    mask's widened bits and of counts `len` at block number `i 0`, element `(b, p, d)` of what the body stores is
    `masked X mk len` at `(b, q, d)`, `q = (i 0) * 128 + p`. -/
theorem point_value (i : grid0.Coords) (cnt : Vec Ideal S16x1 .i32) (mw : Vec Ideal S16x128 .i32)
    (xb : Vec Ideal S16x128x1024 .f32) (X : SX.Idx → EReal) (mk : SM.Idx → BitVec 1) (len : SR.Idx → BitVec 32)
    (y : S16x128x1024.Idx) (b : Fin 16) (p : Fin 128) (d : Fin 1024) (q : Fin 4096)
    (hy : y = ix3 b p d) (hq : q.val = (i 0).val * 128 + p.val)
    (hxb : xb (ix3 b p d) = X (ix3 b q d)) (hcnt : cnt (ix2 b (0 : Fin 1)) = len (ix1 b))
    (hmw : mw (ix2 b p) = (mk (ix2 b q)).setWidth 32) :
    k0_pay1 (F := Ideal) i cnt mw xb y = masked X mk len (ix3 b q d) := by
  subst hy
  rw [stored_apply, hxb, hcnt, hmw, ne_zero_of_bit, ← hq]
  rfl

theorem hz2 : (![0, 0] : Fin 2 → Nat) = fun _ => 0 := funext fun a => by fin_cases a <;> rfl
theorem hz3 : (![0, 0, 0] : Fin 3 → Nat) = fun _ => 0 := funext fun a => by fin_cases a <;> rfl

/-- WHAT POINT `t` WRITES BACK is block `t` of the result. -/
theorem flushed_eq (c : Dev nD) (t : Fin cfg0.N) :
    (dats m 0 c).flushed 3 t = ((cfg0.win 3).blk t).view.read (Elt Ideal) (result m c) := by
  show (cfg0.win 3).cut (grid0.coords t) ((dats m 0 c).after 3 t) = _
  rw [after0_3]
  unfold out0_3
  rw [View.canon_unit_zero hz3]
  simp only [View.ld_unit_zero (S := S16x1) hz2, View.ld_unit_zero (S := S16x128) hz2, View.ld_unit_zero (S := S16x128x1024) hz3]
  obtain ⟨-, -, -, -, -, -, -, e0, e1, e2, et, hlt⟩ := idx_facts t
  funext j
  have hj0 : (j 0).val < 16 := (j 0).isLt
  have hj1 : (j 1).val < 128 := (j 1).isLt
  have hj2 : (j 2).val < 1024 := (j 2).isLt
  have hq : t.val * 128 + (j 1).val < 4096 := by omega
  have hj : j = ix3 (⟨(j 0).val, hj0⟩ : Fin 16) (⟨(j 1).val, hj1⟩ : Fin 128) (⟨(j 2).val, hj2⟩ : Fin 1024) :=
    funext fun a => by match a with | ⟨0, _⟩ => rfl | ⟨1, _⟩ => rfl | ⟨2, _⟩ => rfl
  have hemb : ((cfg0.win 3).blk t).view.emb j
      = ix3 (⟨(j 0).val, hj0⟩ : Fin 16) (⟨t.val * 128 + (j 1).val, hq⟩ : Fin 4096) (⟨(j 2).val, hj2⟩ : Fin 1024) :=
    funext fun a => Fin.ext (by
      match a with
      | ⟨0, _⟩ => show win0_3.index t (0 : Fin 3) * 16 + 1 * (j 0).val = (j 0).val; omega
      | ⟨1, _⟩ => show win0_3.index t (1 : Fin 3) * 128 + 1 * (j 1).val = t.val * 128 + (j 1).val; omega
      | ⟨2, _⟩ => show win0_3.index t (2 : Fin 3) * 1024 + 1 * (j 2).val = (j 2).val; omega)
  show k0_pay1 (grid0.coords t) (iblk m c 0 t) (iblk m c 2 t) (iblk m c 1 t) j
    = result m c (((cfg0.win 3).blk t).view.emb j)
  rw [hemb]
  exact point_value (grid0.coords t) (iblk m c 0 t) (iblk m c 2 t) (iblk m c 1 t) _ _ _ j _ _ _ _ hj
    (show t.val * 128 + (j 1).val = (grid0.coords t 0).val * 128 + (j 1).val by rw [et])
    (array_block m c t _ _ _ _ rfl) (counts_block m c t _) (words_block m c t _ _ _ rfl)

/-! ## From the blocks to the array -/

/-- An index of the result is in point `t`'s block iff each coordinate is in the block's range on its axis. -/
theorem mem_blk (t : Fin cfg0.N) (g : S16x4096x1024.Idx) :
    g ∈ ((cfg0.win 3).blk t).view.set ↔ ∀ a : Fin 3, win0_3.index t a * S16x128x1024.size a ≤ (g a).val
      ∧ (g a).val < win0_3.index t a * S16x128x1024.size a + S16x128x1024.size a := by
  show g ∈ ((View.whole main_v3).slice (win0_3.rect t)).set ↔ _
  rw [View.set_slice_whole, Rect.mem_set_unit]
  exact Iff.rfl

/-- Every index `(b, s, d)` of the result is in the block of point `s / 128`, which writes back. -/
theorem cover (g : S16x4096x1024.Idx) :
    ∃ t : Fin cfg0.N, (cfg0.win 3).flush t = true ∧ g ∈ ((cfg0.win 3).blk t).view.set := by
  have h0 : (g 0).val < 16 := (g 0).isLt
  have h1 : (g 1).val < 4096 := (g 1).isLt
  have h2 : (g 2).val < 1024 := (g 2).isLt
  have hN : cfg0.N = 32 := N_0
  have ht : (g 1).val / 128 < cfg0.N := by rw [hN]; omega
  obtain ⟨-, -, -, -, -, -, -, e0, e1, e2, -⟩ := idx_facts ⟨(g 1).val / 128, ht⟩
  have e1' : win0_3.index ⟨(g 1).val / 128, ht⟩ (1 : Fin 3) = (g 1).val / 128 := e1
  refine ⟨⟨(g 1).val / 128, ht⟩, flush0_3 _, ?_⟩
  rw [mem_blk]
  intro a
  match a with
  | ⟨0, _⟩ =>
    show win0_3.index ⟨(g 1).val / 128, ht⟩ (0 : Fin 3) * 16 ≤ (g 0).val
      ∧ (g 0).val < win0_3.index ⟨(g 1).val / 128, ht⟩ (0 : Fin 3) * 16 + 16
    omega
  | ⟨1, _⟩ =>
    show win0_3.index ⟨(g 1).val / 128, ht⟩ (1 : Fin 3) * 128 ≤ (g 1).val
      ∧ (g 1).val < win0_3.index ⟨(g 1).val / 128, ht⟩ (1 : Fin 3) * 128 + 128
    omega
  | ⟨2, _⟩ =>
    show win0_3.index ⟨(g 1).val / 128, ht⟩ (2 : Fin 3) * 1024 ≤ (g 2).val
      ∧ (g 2).val < win0_3.index ⟨(g 1).val / 128, ht⟩ (2 : Fin 3) * 1024 + 1024
    omega

/-- THE RESULT ARRAY after the run is the masked product of the arguments. -/
theorem final (c : Dev nD) : (dats m 0 c).arrAt 3 cfg0.N = result m c :=
  (dats m 0 c).arrAt_eq_of_cover 3 (result m c) (fun t _ => flushed_eq m c t) cover

/-! ## The run, read -/

/-- Every weakly fair execution of the kernel's program terminates with the result array at the masked product of the
    arguments and the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 3).trans (final m c),
      ((h c).1 1).trans (((dats m 0 c).arrAt_in 1 rfl _).trans ((A_eq m c 1).trans (V_main_arg0 m c))),
      ((h c).2 main_arg1 (Pipeline.mem_restRefs_of main_arg1 (by decide) (by decide))).trans (V_main_arg1 m c)⟩)
    (run_main m ρ)

end Cert.KernelIdeal.ArrayValue

end
-- ==== Proof.ReferenceValue.lean ====
/-
  The reference's result, read at one element, is the masked product.

  The reference multiplies the array by a `[16, 4096]` factor spread along the 1024 lanes (through a trailing unit axis);
  the factor at `(b, s)` is the bit "the word of `s` is below row `b`'s count, and the mask's bit at `(b, s)` is set", read as
  an unsigned integer. The word of `s` comes from an iota spread along the rows, the count from the row sums spread
  along the positions: each spread reads one element of its operand, so at `(b, s, d)` the product is
  `x (b, s, d)` times the kept bit of `(b, s)` — the function `masked`, with the row sums carried unopened as `rowCount`.
-/
import proofs.«130980_j14491219657085_1_alg».proof.Proof.Gen.ReferenceIdeal.Read
import proofs.«130980_j14491219657085_1_alg».proof.Proof.PrefixMask

noncomputable section

namespace Cert.ReferenceIdeal.RefValue

open Idealize.ShloMosaic Idealize.ShloMosaic.ValueIdx Cert.ReferenceIdeal Cert.ReferenceIdeal.Read Cert.PrefixMask

/-- The last operation's value is `masked` of the two arguments and the mask's row counts. -/
theorem result_eq (x0 : (⟨S16x4096x1024, .f32⟩ : BufTy).Contents (Elt Ideal)) (x1 : (⟨S16x4096, .i1⟩ : BufTy).Contents (Elt Ideal)) :
    val_main_v12 (F := Ideal) x0 x1
      = masked x0 x1 (rowCount x1 Facts₀.natLt_1_32 Facts₀.reducesTo_S16x4096_S16_d1 Facts₀.h_S_) := by
  funext g
  -- the index a spread reads its operand at, composed along the chain: `(b, s, d) ↦ (b, s)` for the factor and the
  -- mask, `(b, s, d) ↦ b` for the count
  have e1 : idx_main_v10 (idx_main_v11 g) = ix2 ⟨(g 0).val, (g 0).isLt⟩ ⟨(g 1).val, (g 1).isLt⟩ :=
    funext fun a => by match a with | ⟨0, _⟩ => rfl | ⟨1, _⟩ => rfl
  have e2 : idx_main_v4 (idx_main_v6 (idx_main_v10 (idx_main_v11 g))) = ix1 ⟨(g 0).val, (g 0).isLt⟩ :=
    funext fun a => by match a with | ⟨0, _⟩ => rfl
  rw [val_main_v12_apply, val_main_v11_apply, val_main_v10_apply, val_main_v9_apply, val_main_v8_apply, val_main_v7_apply,
    val_main_v5_apply, val_main_v3_apply, val_main_v2_apply, val_main_v6_apply, val_main_v4_apply, e2, e1]
  rfl

end Cert.ReferenceIdeal.RefValue

end
-- ==== Proof.lean ====
/-
  The certificate of the masked product: a kernel that zeroes, in every row of a `[16, 4096, 1024]` array, the positions
  the mask clears and the positions at or past the row's count of set mask bits, against the same function written
  with whole-array operations.

  Both programs compute the mask's row counts by the same reduction, and both multiply each element `x (b, s, d)` by the
  bit "`s` is below row `b`'s count and the mask is set at `(b, s)`" read as the real number 0 or 1. The kernel does it block
  by block — 32 blocks of 128 positions, the position rebuilt from the block number —, on the mask's bits widened to
  words, reading the widened kept bit as a signed integer; the reference does it on the whole arrays, reading the kept bit
  as an unsigned one. On the words 0 and 1 the two readings agree, so at the ideal instance both result arrays are the
  one function `Cert.PrefixMask.masked` of the two arguments: the kernel's by reading what each grid point writes back and
  tiling the result with the 32 blocks (KernelValue.lean over Payload.lean), the reference's by reading its run one
  operation at a time (ReferenceValue.lean). The product itself is never rearranged, so the finiteness of `x` is not
  used. The ideal pass rewrote nothing, so there is nothing to preserve beyond the text itself. Each program runs to
  the end without a fault, leaving its arguments as launched: the two kernels' runs by their frame certificates, the
  reference's by its run read back.
-/
import proofs.«130980_j14491219657085_1_alg».proof.Defs
import proofs.«130980_j14491219657085_1_alg».proof.Proof.Gen.Kernel
import proofs.«130980_j14491219657085_1_alg».proof.Proof.Gen.Kernel.Skeleton
import proofs.«130980_j14491219657085_1_alg».proof.Proof.Gen.Kernel.Launch
import proofs.«130980_j14491219657085_1_alg».proof.Proof.Gen.Kernel.Points
import proofs.«130980_j14491219657085_1_alg».proof.Proof.FrameKernel
import proofs.«130980_j14491219657085_1_alg».proof.Proof.Gen.KernelIdeal
import proofs.«130980_j14491219657085_1_alg».proof.Proof.Gen.KernelIdeal.Skeleton
import proofs.«130980_j14491219657085_1_alg».proof.Proof.Gen.KernelIdeal.Launch
import proofs.«130980_j14491219657085_1_alg».proof.Proof.Gen.KernelIdeal.Points
import proofs.«130980_j14491219657085_1_alg».proof.Proof.FrameKernelIdeal
import proofs.«130980_j14491219657085_1_alg».proof.Proof.Gen.ReferenceIdeal
import proofs.«130980_j14491219657085_1_alg».proof.Proof.Gen.ReferenceIdeal.Run
import proofs.«130980_j14491219657085_1_alg».proof.Proof.Gen.ReferenceIdeal.Read
import proofs.«130980_j14491219657085_1_alg».proof.Proof.Gen.Pre_finite_inputs
import proofs.«130980_j14491219657085_1_alg».proof.Proof.KernelValue
import proofs.«130980_j14491219657085_1_alg».proof.Proof.ReferenceValue
import Idealize.ShloMosaic.Adequacy
import Idealize.ShloMosaic.Init

noncomputable section

namespace Cert.Proof

open Idealize.ShloMosaic Idealize.SL.Sem

/-- The kernel as printed runs to the end, its arguments unchanged. -/
theorem frame_kernel : Cert.frame_Kernel := fun m ρ _ => Cert.Kernel.GenP.frame m ρ

/-- So does the kernel read at the ideal instance. -/
theorem frame_kernelIdeal : Cert.frame_KernelIdeal := fun m ρ _ => Cert.KernelIdeal.GenP.frame m ρ

/-- The reference runs to the end, its arguments unchanged: its run read back, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten for the ideal reading. -/
theorem preserves : Cert.preserves_Kernel_KernelIdeal := trivial

/-- From memories that agree on the arguments both programs end with the result array at the masked product of the
    arguments: the kernel's run read block by block, the reference's read operation by operation. The two spellings of
    the row counts differ only in which proofs of the same shape facts they carry. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
